-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S1600000x128 : Shape := ⟨2, ![1600000, 128]⟩
abbrev S1x128 : Shape := ⟨2, ![1, 128]⟩

abbrev nBuf : Space → Nat
  | .hbm => 58
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S100000, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_call3_v0 : Ref sig .tc := ⟨.hbm, 60, rfl⟩
abbrev main_call3_v1 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_10 : Ref sig .tc := ⟨.hbm, 67, rfl⟩
abbrev main_call4_v0 : Ref sig .tc := ⟨.hbm, 68, rfl⟩
abbrev main_call4_v1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_11 : Ref sig .tc := ⟨.hbm, 75, rfl⟩
abbrev main_v45 : Ref sig .tc := ⟨.hbm, 76, rfl⟩
abbrev main_v46 : Ref sig .tc := ⟨.hbm, 77, rfl⟩
abbrev main_c_12 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call5_cst : Ref sig .tc := ⟨.hbm, 96, rfl⟩
abbrev main_call5_v0 : Ref sig .tc := ⟨.hbm, 97, rfl⟩
abbrev main_v63 : Ref sig .tc := ⟨.hbm, 98, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Stages.lean ====
/-
  The two whole-array functions a two-layer graph convolution is made of, on the extended reals.

  `scaleRows y r`: every row `p` of the [100000, 128] array `y` multiplied by the one entry `r[p, 0]` of a
  column `r` (the degree normalisation of one side of an edge).

  `dense agg rin w b`: the rows of `agg` scaled by the column `rin`, multiplied by the [128, 128] matrix `w`,
  the bias row `b` added, and the result clamped below at zero:
  `max (Σ_k (agg[p, k] · rin[p, 0]) · w[k, q] + b[q]) 0` at row `p`, column `q`.

  A layer of the network is `dense` of the aggregated neighbour rows; between the layers the result is
  scaled again (`scaleRows`). Nothing here mentions a program: the two programs are each shown, elsewhere,
  to compute these functions.
-/
import proofs.«148444_j20710332301824_1_alg».proof.KernelIdeal
import Idealize.ShloMosaic.PureOps.Ideal
import Idealize.ShloMosaic.Lib.ValueIdx

noncomputable section

namespace Cert.Stages

open Idealize.ShloMosaic Idealize.ShloMosaic.ValueIdx
open Cert.KernelIdeal (S100000x128 S100000x1 S128x128 S128)

/-- Row `p` of `y` times the entry `r[p, 0]`. -/
def scaleRows (y : FVec Ideal S100000x128 .f32) (r : FVec Ideal S100000x1 .f32) : FVec Ideal S100000x128 .f32 :=
  fun i => y i * r (ix2 (i 0) (0 : Fin 1))

/-- `max (Σ_k (agg[p, k] · rin[p, 0]) · w[k, q] + b[q]) 0`; the zero is written as the word the programs
    write it with. -/
def dense (agg : FVec Ideal S100000x128 .f32) (rin : FVec Ideal S100000x1 .f32) (w : FVec Ideal S128x128 .f32)
    (b : FVec Ideal S128 .f32) : FVec Ideal S100000x128 .f32 :=
  fun i => max ((∑ k : Fin 128, (agg (ix2 (i 0) k) * rin (ix2 (i 0) (0 : Fin 1))) * w (ix2 k (i 1))) + b (ix1 (i 1)))
    (Ideal.ofBits .f32 0x00000000#32)

theorem scaleRows_apply (y : FVec Ideal S100000x128 .f32) (r : FVec Ideal S100000x1 .f32) (p : Fin 100000) (q : Fin 128) :
    scaleRows y r (ix2 p q) = y (ix2 p q) * r (ix2 p (0 : Fin 1)) := rfl

theorem dense_apply (agg : FVec Ideal S100000x128 .f32) (rin : FVec Ideal S100000x1 .f32) (w : FVec Ideal S128x128 .f32)
    (b : FVec Ideal S128 .f32) (p : Fin 100000) (q : Fin 128) :
    dense agg rin w b (ix2 p q)
      = max ((∑ k : Fin 128, (agg (ix2 p k) * rin (ix2 p (0 : Fin 1))) * w (ix2 k q)) + b (ix1 q))
          (Ideal.ofBits .f32 0x00000000#32) := rfl

end Cert.Stages

end
-- ==== Proof.Network.lean ====
import proofs.«148444_j20710332301824_1_alg».proof.Proof.Gen.KernelIdeal
import proofs.«148444_j20710332301824_1_alg».proof.Proof.Stages

/-!
  The network as one function of its seven arguments, on the extended reals.

  `degree idx`: for each of the 100000 nodes the number of entries of `idx` that name it (a sum of ones
  scattered to the named positions), clamped below at one.
  `normCol idx`: the reciprocal square roots of those degrees, as a column [100000, 1].
  `aggregate h src dst`: row `src[e]` of `h` gathered for every edge `e` (a negative index counted from the
  end) and the gathered rows summed into row `dst[e]` of a zero array.
  `network`: two layers — scale the rows by the out-degree column, aggregate along the edges, then
  `dense` with the in-degree column, the layer's weights and its bias.

  The gather and the scatter are never opened: both programs apply these same operations to arrays that are
  shown equal.
-/

noncomputable section

namespace Cert.KernelIdeal.Net

open Idealize.ShloMosaic Cert.KernelIdeal Cert.Stages

/-- Each node's count of occurrences in `idx`, at least one. -/
def degree (idx : (⟨S1600000, .i32⟩ : BufTy).Contents (Elt Ideal)) : FVec Ideal S100000 .f32 :=
  maximumf (broadcastInDim S100000 ![] Gen.bcast_S_S100000 (id (constant S_ .f32 0x3F800000#32)))
    (Host.scatterAdd scatter_S100000_S1600000x1_S1600000_n_0_0_1
      (broadcastInDim S100000 ![] Gen.bcast_S_S100000 (constant S_ .f32 0x00000000#32))
      (broadcastInDim S1600000x1 ![0] Gen.bcast_S1600000_S1600000x1_0 idx)
      (broadcastInDim S1600000 ![] Gen.bcast_S_S1600000 (constant S_ .f32 0x3F800000#32)))

/-- The column of reciprocal square roots of the degrees. -/
def normCol (idx : (⟨S1600000, .i32⟩ : BufTy).Contents (Elt Ideal)) : FVec Ideal S100000x1 .f32 :=
  broadcastInDim S100000x1 ![0] Gen.bcast_S100000_S100000x1_0 (Host.rsqrt (degree idx))

/-- The rows of `h` gathered at the edges' sources and summed at the edges' destinations. -/
def aggregate (h : FVec Ideal S100000x128 .f32) (src dst : (⟨S1600000, .i32⟩ : BufTy).Contents (Elt Ideal)) :
    FVec Ideal S100000x128 .f32 :=
  Host.scatterAdd scatter_S100000x128_S1600000x1_S1600000x128_1_0_0_1
    (broadcastInDim S100000x128 ![] Gen.bcast_S_S100000x128 (constant S_ .f32 0x00000000#32))
    (broadcastInDim S1600000x1 ![0] Gen.bcast_S1600000_S1600000x1_0 dst)
    (Host.gather gather_S100000x128_S1600000x1_S1600000x128_1_0_n_n_0_1_1128 h
      (broadcastInDim S1600000x1 ![0] Gen.bcast_S1600000_S1600000x1_0
        (select (cmpi .slt src (broadcastInDim S1600000 ![] Gen.bcast_S_S1600000 (constantI S_ 32 0#32)))
          (addi src (broadcastInDim S1600000 ![] Gen.bcast_S_S1600000 (constantI S_ 32 100000#32))) src)))

/-- The first layer's output, already scaled for the second: what the second launch leaves. -/
def hidden (x0 : FVec Ideal S100000x128 .f32) (x1 : FVec Ideal S128x128 .f32) (x2 : FVec Ideal S128 .f32)
    (src dst : (⟨S1600000, .i32⟩ : BufTy).Contents (Elt Ideal)) : FVec Ideal S100000x128 .f32 :=
  scaleRows (dense (aggregate (scaleRows x0 (normCol src)) src dst) (normCol dst) x1 x2) (normCol src)

/-- The two layers. -/
def network (x0 : FVec Ideal S100000x128 .f32) (x1 : FVec Ideal S128x128 .f32) (x2 : FVec Ideal S128 .f32)
    (x3 : FVec Ideal S128x128 .f32) (x4 : FVec Ideal S128 .f32)
    (src dst : (⟨S1600000, .i32⟩ : BufTy).Contents (Elt Ideal)) : FVec Ideal S100000x128 .f32 :=
  dense (aggregate (hidden x0 x1 x2 src dst) src dst) (normCol dst) x3 x4

end Cert.KernelIdeal.Net

end
-- ==== Proof.BodyOps.lean ====
import proofs.«148444_j20710332301824_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

/-!
  Three facts about the operations the kernel bodies are written with, read at one index of a block:
  a column repeated across the lanes; the body's [2000, 128] × [128, 128] matrix product into a zero
  accumulator as a sum over the contracted axis; and the zero offsets of a whole-block access.
-/

noncomputable section

open Idealize.ShloMosaic Idealize.ShloMosaic.ValueIdx

namespace Cert.KernelIdeal.BodyOps

open Cert.KernelIdeal Cert.KernelIdeal.Gen

/-- A whole-block access starts at offset zero on both axes. -/
theorem hz : (![0, 0] : Fin 2 → Nat) = fun _ => 0 := funext fun a => by fin_cases a <;> rfl

/-- and on the one axis of a vector. -/
theorem hz1 : (![0] : Fin 1 → Nat) = fun _ => 0 := funext fun a => by fin_cases a; rfl

/-- A column [a, 1] repeated across b columns, read at (p, q), is the column's entry at (p, 0). -/
theorem column_broadcast {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun d => ?_
  match d with
  | ⟨0, _⟩ =>
    by_cases ha : a = 1
    · subst ha; show (p : Nat) = if (1 : Nat) = 1 then 0 else _; rw [if_pos rfl]; omega
    · show (p : Nat) = if a = 1 then 0 else (p : Nat); rw [if_neg ha]
  | ⟨1, _⟩ => show (0 : Nat) = if (1 : Nat) = 1 then 0 else _; rw [if_pos rfl]

/-! The body's matrix product: the left operand's index at output (p, q) and contraction index k is (p, k), the
    right operand's (k, q). -/

theorem lhs_0 (i : S2000x128.Idx) (u : dot_S2000x128_S128x128_S2000x128_1_0_0_1_n_n.contr.Idx) :
    (dot_S2000x128_S128x128_S2000x128_1_0_0_1_n_n.lhsIdx i u 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_1 (i : S2000x128.Idx) (u : dot_S2000x128_S128x128_S2000x128_1_0_0_1_n_n.contr.Idx) :
    (dot_S2000x128_S128x128_S2000x128_1_0_0_1_n_n.lhsIdx i u 1).val = (u ⟨0, by decide⟩).val :=
  dot_S2000x128_S128x128_S2000x128_1_0_0_1_n_n.lhsIdx_val_of_single rfl i u
theorem rhs_0 (i : S2000x128.Idx) (u : dot_S2000x128_S128x128_S2000x128_1_0_0_1_n_n.contr.Idx) :
    (dot_S2000x128_S128x128_S2000x128_1_0_0_1_n_n.rhsIdx i u 0).val = (u ⟨0, by decide⟩).val :=
  dot_S2000x128_S128x128_S2000x128_1_0_0_1_n_n.rhsIdx_val_of_single rfl i u
theorem rhs_1 (i : S2000x128.Idx) (u : dot_S2000x128_S128x128_S2000x128_1_0_0_1_n_n.contr.Idx) :
    (dot_S2000x128_S128x128_S2000x128_1_0_0_1_n_n.rhsIdx i u 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The body's matrix product into the zero accumulator, at (p, q): Σ_k lhs[p, k] · rhs[k, q]. -/
theorem matmul_at {φ₁ φ₂ : FTy} (lhs : FVec Ideal S2000x128 φ₁) (rhs : FVec Ideal S128x128 φ₂) (p : Fin 2000) (q : Fin 128) :
    matmul dot_S2000x128_S128x128_S2000x128_1_0_0_1_n_n none lhs rhs (constant S2000x128 .f32 0x00000000#32) (ix2 p q)
      = ∑ k : Fin 128, lhs (ix2 p k) * rhs (ix2 k q) := by
  refine (Ideal.matmul_constant_zero_apply dot_S2000x128_S128x128_S2000x128_1_0_0_1_n_n none lhs rhs (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q)
      ((ValueIdx.contrEquiv1 dot_S2000x128_S128x128_S2000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S2000x128_S128x128_S2000x128_1_0_0_1_n_n.rhsIdx (ix2 p q)
      ((ValueIdx.contrEquiv1 dot_S2000x128_S128x128_S2000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

end Cert.KernelIdeal.BodyOps

end
-- ==== Proof.Region0.lean ====
import proofs.«148444_j20710332301824_1_alg».proof.Proof.Gen.KernelIdeal.Frame
import proofs.«148444_j20710332301824_1_alg».proof.Proof.Stages
import proofs.«148444_j20710332301824_1_alg».proof.Proof.BodyOps
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

/-!
  The first launch: every 2000-row block of the feature array is multiplied, row by row, by the matching block
  of the out-degree column. Read back over the whole grid, the array the launch leaves is `scaleRows` of the two
  arrays it was entered with — whatever those are (`V`, the buffers at the launch's entry, is a parameter).

  A block's element (p, q) at grid point t sits at row t·2000 + p of the array; the column window moves with
  the same row offset; and row r of the array lies in the block of point r / 2000.
-/

namespace Cert.KernelIdeal.Region0

open Cert.KernelIdeal Cert.KernelIdeal.Gen Cert.KernelIdeal.BodyOps Cert.Stages

variable (V : (c : Dev nD) → (b : Ref sig .tc) → Buf (Elt Ideal) ((c : Thread nD τ).loc b))

/-- The body's stored value at (p, q): the feature block's entry times the column block's entry of row p. -/
theorem pay_apply (x0 : Vec Ideal S2000x128 .f32) (x1 : Vec Ideal S2000x1 .f32) (p : Fin 2000) (q : Fin 128) :
    k0_pay1 x0 x1 (ix2 p q) = x0 (ix2 p q) * x1 (ix2 p (0 : Fin 1)) := by
  unfold k0_pay1
  refine congrArg (x0 (ix2 p q) * ·) ?_
  refine (column_broadcast _ _ p q).trans ?_
  rw [shapeCast_self]

/-- The stored block is a block of `scaleRows y r` once the two loaded blocks are blocks of `y` and `r`. -/
theorem pay_block (x0 : Vec Ideal S2000x128 .f32) (x1 : Vec Ideal S2000x1 .f32)
    (y : FVec Ideal S100000x128 .f32) (r : FVec Ideal S100000x1 .f32) (j : S2000x128.Idx) (i : S100000x128.Idx)
    (h0 : x0 j = y i) (h1 : x1 (ix2 (j 0) (0 : Fin 1)) = r (ix2 (i 0) (0 : Fin 1))) :
    k0_pay1 x0 x1 j = scaleRows y r i := by
  obtain ⟨p, q, rfl⟩ : ∃ (p : Fin 2000) (q : Fin 128), j = ix2 p q := ⟨j 0, j 1, eq_ix2 j⟩
  rw [pay_apply]
  unfold scaleRows
  rw [h0]
  exact congrArg (y i * ·) h1

/-- The printed index maps over the grid: the three windows move together down the rows, point t at block t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of `scaleRows` of the two arrays the launch was entered with. -/
theorem flushed (c : Dev nD) (t : Fin cfg0.N) :
    (dat0 V c).flushed 2 t = ((cfg0.win 2).blk t).view.read (Elt Ideal) (scaleRows (V c main_arg0) (V c main_v10)) := by
  show (cfg0.win 2).cut (grid0.coords t) ((dat0 V c).after 2 t) = _
  rw [after0_2]
  unfold out0_2
  rw [View.canon_unit_zero hz]
  simp only [View.ld_unit_zero (S := S2000x128) hz, View.ld_unit_zero (S := S2000x1) hz]
  obtain ⟨e0, e1, e2, e3, e4, e5⟩ := idx_facts t
  funext j
  show k0_pay1 (iblk0 V c 0 t) (iblk0 V c 1 t) j
    = scaleRows (V c main_arg0) (V c main_v10) (((cfg0.win 2).blk t).view.emb j)
  refine pay_block _ _ _ _ j _ ?_ ?_
  · show V c main_arg0 (((cfg0.win 0).blk t).view.emb j) = V c main_arg0 (((cfg0.win 2).blk t).view.emb j)
    refine congrArg _ (funext fun a => Fin.ext ?_)
    match a with
    | ⟨0, _⟩ => show win0_0.index t (0 : Fin 2) * 2000 + 1 * (j 0).val = win0_2.index t (0 : Fin 2) * 2000 + 1 * (j 0).val; rw [e0, e4]
    | ⟨1, _⟩ => show win0_0.index t (1 : Fin 2) * 128 + 1 * (j 1).val = win0_2.index t (1 : Fin 2) * 128 + 1 * (j 1).val; rw [e1, e5]
  · show V c main_v10 (((cfg0.win 1).blk t).view.emb (ix2 (j 0) (0 : Fin 1)))
      = V c main_v10 (ix2 ((((cfg0.win 2).blk t).view.emb j) 0) (0 : Fin 1))
    refine congrArg _ (funext fun a => Fin.ext ?_)
    match a with
    | ⟨0, _⟩ => show win0_1.index t (0 : Fin 2) * 2000 + 1 * (j 0).val = win0_2.index t (0 : Fin 2) * 2000 + 1 * (j 0).val; rw [e2, e4]
    | ⟨1, _⟩ => show win0_1.index t (1 : Fin 2) * 1 + 1 * 0 = 0; rw [e3]

/-- An index of the array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v13).slice (win0_2.rect t)).set ↔ _
  rw [View.set_slice_whole, Rect.mem_set_unit]
  exact Iff.rfl

/-- Row r of the array lies in the block of point r / 2000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- The array the launch leaves: `scaleRows` of the feature array and the column it was entered with. -/
theorem final (c : Dev nD) :
    (dat0 V c).arrAt 2 cfg0.N = scaleRows (V c main_arg0) (V c main_v10) :=
  (dat0 V c).arrAt_eq_of_cover 2 (scaleRows (V c main_arg0) (V c main_v10)) (fun t _ => flushed V c t) cover

end Cert.KernelIdeal.Region0

end
-- ==== Proof.DenseBody.lean ====
import proofs.«148444_j20710332301824_1_alg».proof.Proof.Gen.KernelIdeal.Skeleton
import proofs.«148444_j20710332301824_1_alg».proof.Proof.Stages
import proofs.«148444_j20710332301824_1_alg».proof.Proof.BodyOps
import Idealize.ShloMosaic.Lib.Pipeline.Value
import Idealize.ShloMosaic.Lib.ValueIdx
import Idealize.ShloMosaic.Lib.ValueLayout
import Idealize.ShloMosaic.PureOps.Ideal.Laws

/-!
  What the two matrix-product bodies store, at one index of their [2000, 128] block, on the extended reals:
  the aggregated block's row p scaled by the in-degree column's entry of row p, contracted with the weight
  matrix's column q, the bias entry q added, the sum clamped below at zero — and, in the first of the two
  bodies, the result multiplied once more by the out-degree column's entry of row p. The change of float
  format on the way into the product is the identity here, and the product into a zero accumulator is the
  plain sum over the contracted axis.
-/

noncomputable section

open Idealize.ShloMosaic Idealize.ShloMosaic.ValueIdx

namespace Cert.KernelIdeal.DenseBody

open Cert.KernelIdeal Cert.KernelIdeal.Gen Cert.KernelIdeal.BodyOps Cert.Stages

/-- The second matrix-product body's stored value at (p, q). -/
theorem pay2_apply (v0 : Vec Ideal S2000x128 .f32) (v2 : Vec Ideal S2000x1 .f32) (v7 : Vec Ideal S128x128 .f32)
    (v10 : Vec Ideal S128 .f32) (p : Fin 2000) (q : Fin 128) :
    k2_pay1 v0 v2 v7 v10 (ix2 p q)
      = max ((∑ k : Fin 128, (v0 (ix2 p k) * v2 (ix2 p (0 : Fin 1))) * v7 (ix2 k q)) + v10 (ix1 q))
          (Ideal.ofBits .f32 0x00000000#32) := by
  unfold k2_pay1
  refine congrArg₂ max (congrArg₂ (· + ·) ?_ ?_) rfl
  · refine (matmul_at _ _ p q).trans (Finset.sum_congr rfl fun k _ => ?_)
    refine congrArg₂ (· * ·) ?_ rfl
    exact congrArg₂ (· * ·) (congrFun (shapeCast_self v0 _) (ix2 p k))
      ((column_broadcast _ _ p k).trans (congrFun (shapeCast_self v2 _) _))
  · exact (broadcastTo_1b_ab_apply _ _ p q).trans (shapeCast_a_1a_apply v10 _ 0 q)

/-- The first matrix-product body stores the same value times the out-degree column's entry of row p. -/
theorem pay1_apply (v0 : Vec Ideal S2000x128 .f32) (v2 : Vec Ideal S2000x1 .f32) (v7 : Vec Ideal S128x128 .f32)
    (v10 : Vec Ideal S128 .f32) (v16 : Vec Ideal S2000x1 .f32) (p : Fin 2000) (q : Fin 128) :
    k1_pay1 v0 v2 v7 v10 v16 (ix2 p q)
      = max ((∑ k : Fin 128, (v0 (ix2 p k) * v2 (ix2 p (0 : Fin 1))) * v7 (ix2 k q)) + v10 (ix1 q))
          (Ideal.ofBits .f32 0x00000000#32) * v16 (ix2 p (0 : Fin 1)) := by
  show k2_pay1 v0 v2 v7 v10 (ix2 p q) * _ = _
  rw [pay2_apply]
  refine congrArg₂ (fun a b : EReal => a * b) rfl ?_
  exact (column_broadcast _ _ p q).trans (congrFun (shapeCast_self v16 _) _)

/-- The second body's stored block is a block of `dense agg rin w b` once the aggregated and column blocks are
    blocks of `agg` and `rin` at the same rows and the weight and bias blocks are the whole of `w` and `b`. -/
theorem pay2_block (v0 : Vec Ideal S2000x128 .f32) (v2 : Vec Ideal S2000x1 .f32) (v7 : Vec Ideal S128x128 .f32)
    (v10 : Vec Ideal S128 .f32)
    (agg : FVec Ideal S100000x128 .f32) (rin : FVec Ideal S100000x1 .f32) (w : FVec Ideal S128x128 .f32) (b : FVec Ideal S128 .f32)
    (p : Fin 2000) (q : Fin 128) (r : Fin 100000)
    (h0 : ∀ k : Fin 128, v0 (ix2 p k) = agg (ix2 r k)) (h2 : v2 (ix2 p (0 : Fin 1)) = rin (ix2 r (0 : Fin 1)))
    (h7 : v7 = w) (h10 : v10 = b) :
    k2_pay1 v0 v2 v7 v10 (ix2 p q) = dense agg rin w b (ix2 r q) := by
  rw [pay2_apply, dense_apply, h2, h7, h10]
  refine congrArg (max · _) (congrArg (· + _) (Finset.sum_congr rfl fun k _ => ?_))
  rw [h0 k]

/-- The first body's stored block likewise is a block of `scaleRows (dense agg rin w b) rout`. -/
theorem pay1_block (v0 : Vec Ideal S2000x128 .f32) (v2 : Vec Ideal S2000x1 .f32) (v7 : Vec Ideal S128x128 .f32)
    (v10 : Vec Ideal S128 .f32) (v16 : Vec Ideal S2000x1 .f32)
    (agg : FVec Ideal S100000x128 .f32) (rin rout : FVec Ideal S100000x1 .f32) (w : FVec Ideal S128x128 .f32) (b : FVec Ideal S128 .f32)
    (p : Fin 2000) (q : Fin 128) (r : Fin 100000)
    (h0 : ∀ k : Fin 128, v0 (ix2 p k) = agg (ix2 r k)) (h2 : v2 (ix2 p (0 : Fin 1)) = rin (ix2 r (0 : Fin 1)))
    (h7 : v7 = w) (h10 : v10 = b) (h16 : v16 (ix2 p (0 : Fin 1)) = rout (ix2 r (0 : Fin 1))) :
    k1_pay1 v0 v2 v7 v10 v16 (ix2 p q) = scaleRows (dense agg rin w b) rout (ix2 r q) := by
  show k2_pay1 v0 v2 v7 v10 (ix2 p q) * _ = _
  rw [pay2_block v0 v2 v7 v10 agg rin w b p q r h0 h2 h7 h10, scaleRows_apply]
  refine congrArg₂ (fun a b : EReal => a * b) rfl ?_
  exact ((column_broadcast _ _ p q).trans (congrFun (shapeCast_self v16 _) _)).trans h16

/-- The same with the block index and the array index given whole: the column agrees, and the hypotheses speak of
    the block's row and the array's row. -/
theorem pay2_at (v0 : Vec Ideal S2000x128 .f32) (v2 : Vec Ideal S2000x1 .f32) (v7 : Vec Ideal S128x128 .f32)
    (v10 : Vec Ideal S128 .f32)
    (agg : FVec Ideal S100000x128 .f32) (rin : FVec Ideal S100000x1 .f32) (w : FVec Ideal S128x128 .f32) (b : FVec Ideal S128 .f32)
    (j : S2000x128.Idx) (i : S100000x128.Idx) (hq : (i 1).val = (j 1).val)
    (h0 : ∀ k : Fin 128, v0 (ix2 (j 0) k) = agg (ix2 (i 0) k))
    (h2 : v2 (ix2 (j 0) (0 : Fin 1)) = rin (ix2 (i 0) (0 : Fin 1)))
    (h7 : v7 = w) (h10 : v10 = b) :
    k2_pay1 v0 v2 v7 v10 j = dense agg rin w b i := by
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hqq : q' = q := Fin.ext hq
  rw [hqq]
  exact pay2_block v0 v2 v7 v10 agg rin w b p q r h0 h2 h7 h10

theorem pay1_at (v0 : Vec Ideal S2000x128 .f32) (v2 : Vec Ideal S2000x1 .f32) (v7 : Vec Ideal S128x128 .f32)
    (v10 : Vec Ideal S128 .f32) (v16 : Vec Ideal S2000x1 .f32)
    (agg : FVec Ideal S100000x128 .f32) (rin rout : FVec Ideal S100000x1 .f32) (w : FVec Ideal S128x128 .f32) (b : FVec Ideal S128 .f32)
    (j : S2000x128.Idx) (i : S100000x128.Idx) (hq : (i 1).val = (j 1).val)
    (h0 : ∀ k : Fin 128, v0 (ix2 (j 0) k) = agg (ix2 (i 0) k))
    (h2 : v2 (ix2 (j 0) (0 : Fin 1)) = rin (ix2 (i 0) (0 : Fin 1)))
    (h7 : v7 = w) (h10 : v10 = b)
    (h16 : v16 (ix2 (j 0) (0 : Fin 1)) = rout (ix2 (i 0) (0 : Fin 1))) :
    k1_pay1 v0 v2 v7 v10 v16 j = scaleRows (dense agg rin w b) rout i := by
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hqq : q' = q := Fin.ext hq
  rw [hqq]
  exact pay1_block v0 v2 v7 v10 v16 agg rin rout w b p q r h0 h2 h7 h10 h16

end Cert.KernelIdeal.DenseBody

end
-- ==== Proof.Region1.lean ====
import proofs.«148444_j20710332301824_1_alg».proof.Proof.Gen.KernelIdeal.Frame
import proofs.«148444_j20710332301824_1_alg».proof.Proof.Stages
import proofs.«148444_j20710332301824_1_alg».proof.Proof.BodyOps
import proofs.«148444_j20710332301824_1_alg».proof.Proof.DenseBody
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

/-!
  The second launch: at grid point t the body takes rows t·2000 … t·2000 + 1999 of the aggregated array and of
  the two degree columns, the whole weight matrix and the whole bias row, and stores the layer's output rows,
  scaled for the next layer. Read back over the grid, the array the launch leaves is
  `scaleRows (dense agg rin w b) rout` of the five arrays it was entered with, whatever those are.
-/

namespace Cert.KernelIdeal.Region1

open Cert.KernelIdeal Cert.KernelIdeal.Gen Cert.KernelIdeal.BodyOps Cert.KernelIdeal.DenseBody Cert.Stages

variable (V : (c : Dev nD) → (b : Ref sig .tc) → Buf (Elt Ideal) ((c : Thread nD τ).loc b))

/-- The printed index maps over the grid: the row windows at block t, the weight and bias windows at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point t writes back is block t of the layer's scaled output of the arrays the launch was entered with. -/
theorem flushed (c : Dev nD) (t : Fin cfg1.N) :
    (dat1 V c).flushed 5 t = ((cfg1.win 5).blk t).view.read (Elt Ideal)
      (scaleRows (dense (V c main_v23) (V c main_v12) (V c main_arg1) (V c main_arg2)) (V c main_v10)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz,
    View.ld_unit_zero (S := S128x128) hz, View.ld_unit_zero (S := S128) hz1]
  obtain ⟨e00, e01, e10, e11, e20, e21, e30, e31, e40, e50, e51⟩ := idx_facts t
  funext j
  show k1_pay1 (iblk1 V c 0 t) (iblk1 V c 1 t) (iblk1 V c 3 t) (iblk1 V c 4 t) (iblk1 V c 2 t) j
    = scaleRows (dense (V c main_v23) (V c main_v12) (V c main_arg1) (V c main_arg2)) (V c main_v10)
        (((cfg1.win 5).blk t).view.emb j)
  refine pay1_at _ _ _ _ _ _ _ _ _ _ j _ ?_ (fun k => ?_) ?_ ?_ ?_ ?_
  · show win1_5.index t (1 : Fin 2) * 128 + 1 * (j 1).val = (j 1).val
    rw [e51]; omega
  · show V c main_v23 (((cfg1.win 0).blk t).view.emb (ix2 (j 0) k))
      = V c main_v23 (ix2 ((((cfg1.win 5).blk t).view.emb j) 0) k)
    refine congrArg _ (funext fun a => Fin.ext ?_)
    match a with
    | ⟨0, _⟩ => show win1_0.index t (0 : Fin 2) * 2000 + 1 * (j 0).val = win1_5.index t (0 : Fin 2) * 2000 + 1 * (j 0).val; rw [e00, e50]
    | ⟨1, _⟩ => show win1_0.index t (1 : Fin 2) * 128 + 1 * k.val = k.val; rw [e01]; omega
  · show V c main_v12 (((cfg1.win 1).blk t).view.emb (ix2 (j 0) (0 : Fin 1)))
      = V c main_v12 (ix2 ((((cfg1.win 5).blk t).view.emb j) 0) (0 : Fin 1))
    refine congrArg _ (funext fun a => Fin.ext ?_)
    match a with
    | ⟨0, _⟩ => show win1_1.index t (0 : Fin 2) * 2000 + 1 * (j 0).val = win1_5.index t (0 : Fin 2) * 2000 + 1 * (j 0).val; rw [e10, e50]
    | ⟨1, _⟩ => show win1_1.index t (1 : Fin 2) * 1 + 1 * 0 = 0; rw [e11]
  · funext y
    show V c main_arg1 (((cfg1.win 3).blk t).view.emb y) = V c main_arg1 y
    refine congrArg _ (funext fun a => Fin.ext ?_)
    match a with
    | ⟨0, _⟩ => show win1_3.index t (0 : Fin 2) * 128 + 1 * (y 0).val = (y 0).val; rw [e30]; omega
    | ⟨1, _⟩ => show win1_3.index t (1 : Fin 2) * 128 + 1 * (y 1).val = (y 1).val; rw [e31]; omega
  · funext y
    show V c main_arg2 (((cfg1.win 4).blk t).view.emb y) = V c main_arg2 y
    refine congrArg _ (funext fun a => Fin.ext ?_)
    match a with
    | ⟨0, _⟩ => show win1_4.index t (0 : Fin 1) * 128 + 1 * (y 0).val = (y 0).val; rw [e40]; omega
  · show V c main_v10 (((cfg1.win 2).blk t).view.emb (ix2 (j 0) (0 : Fin 1)))
      = V c main_v10 (ix2 ((((cfg1.win 5).blk t).view.emb j) 0) (0 : Fin 1))
    refine congrArg _ (funext fun a => Fin.ext ?_)
    match a with
    | ⟨0, _⟩ => show win1_2.index t (0 : Fin 2) * 2000 + 1 * (j 0).val = win1_5.index t (0 : Fin 2) * 2000 + 1 * (j 0).val; rw [e20, e50]
    | ⟨1, _⟩ => show win1_2.index t (1 : Fin 2) * 1 + 1 * 0 = 0; rw [e21]

/-- An index of the array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v24).slice (win1_5.rect t)).set ↔ _
  rw [View.set_slice_whole, Rect.mem_set_unit]
  exact Iff.rfl

/-- Row r of the array lies in the block of point r / 2000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, -, e50, e51⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e51]; omega

/-- The array the launch leaves. -/
theorem final (c : Dev nD) :
    (dat1 V c).arrAt 5 cfg1.N
      = scaleRows (dense (V c main_v23) (V c main_v12) (V c main_arg1) (V c main_arg2)) (V c main_v10) :=
  (dat1 V c).arrAt_eq_of_cover 5 _ (fun t _ => flushed V c t) cover

end Cert.KernelIdeal.Region1

end
-- ==== Proof.Region2.lean ====
import proofs.«148444_j20710332301824_1_alg».proof.Proof.Gen.KernelIdeal.Frame
import proofs.«148444_j20710332301824_1_alg».proof.Proof.Stages
import proofs.«148444_j20710332301824_1_alg».proof.Proof.BodyOps
import proofs.«148444_j20710332301824_1_alg».proof.Proof.DenseBody
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

/-!
  The third launch: as the second, without the final scaling. Read back over the grid, the array the launch
  leaves is `dense agg rin w b` of the four arrays it was entered with, whatever those are.
-/

namespace Cert.KernelIdeal.Region2

open Cert.KernelIdeal Cert.KernelIdeal.Gen Cert.KernelIdeal.BodyOps Cert.KernelIdeal.DenseBody Cert.Stages

variable (V : (c : Dev nD) → (b : Ref sig .tc) → Buf (Elt Ideal) ((c : Thread nD τ).loc b))

/-- The printed index maps over the grid: the row windows at block t, the weight and bias windows at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- What point t writes back is block t of the layer's output of the arrays the launch was entered with. -/
theorem flushed (c : Dev nD) (t : Fin cfg2.N) :
    (dat2 V c).flushed 4 t = ((cfg2.win 4).blk t).view.read (Elt Ideal)
      (dense (V c main_v34) (V c main_v12) (V c main_arg3) (V c main_arg4)) := by
  show (cfg2.win 4).cut (grid2.coords t) ((dat2 V c).after 4 t) = _
  rw [after2_4]
  unfold out2_4
  rw [View.canon_unit_zero hz]
  simp only [View.ld_unit_zero (S := S2000x128) hz, View.ld_unit_zero (S := S2000x1) hz,
    View.ld_unit_zero (S := S128x128) hz, View.ld_unit_zero (S := S128) hz1]
  obtain ⟨e00, e01, e10, e11, e20, e21, e30, e40, e41⟩ := idx_facts t
  funext j
  show k2_pay1 (iblk2 V c 0 t) (iblk2 V c 1 t) (iblk2 V c 2 t) (iblk2 V c 3 t) j
    = dense (V c main_v34) (V c main_v12) (V c main_arg3) (V c main_arg4) (((cfg2.win 4).blk t).view.emb j)
  refine pay2_at _ _ _ _ _ _ _ _ j _ ?_ (fun k => ?_) ?_ ?_ ?_
  · show win2_4.index t (1 : Fin 2) * 128 + 1 * (j 1).val = (j 1).val
    rw [e41]; omega
  · show V c main_v34 (((cfg2.win 0).blk t).view.emb (ix2 (j 0) k))
      = V c main_v34 (ix2 ((((cfg2.win 4).blk t).view.emb j) 0) k)
    refine congrArg _ (funext fun a => Fin.ext ?_)
    match a with
    | ⟨0, _⟩ => show win2_0.index t (0 : Fin 2) * 2000 + 1 * (j 0).val = win2_4.index t (0 : Fin 2) * 2000 + 1 * (j 0).val; rw [e00, e40]
    | ⟨1, _⟩ => show win2_0.index t (1 : Fin 2) * 128 + 1 * k.val = k.val; rw [e01]; omega
  · show V c main_v12 (((cfg2.win 1).blk t).view.emb (ix2 (j 0) (0 : Fin 1)))
      = V c main_v12 (ix2 ((((cfg2.win 4).blk t).view.emb j) 0) (0 : Fin 1))
    refine congrArg _ (funext fun a => Fin.ext ?_)
    match a with
    | ⟨0, _⟩ => show win2_1.index t (0 : Fin 2) * 2000 + 1 * (j 0).val = win2_4.index t (0 : Fin 2) * 2000 + 1 * (j 0).val; rw [e10, e40]
    | ⟨1, _⟩ => show win2_1.index t (1 : Fin 2) * 1 + 1 * 0 = 0; rw [e11]
  · funext y
    show V c main_arg3 (((cfg2.win 2).blk t).view.emb y) = V c main_arg3 y
    refine congrArg _ (funext fun a => Fin.ext ?_)
    match a with
    | ⟨0, _⟩ => show win2_2.index t (0 : Fin 2) * 128 + 1 * (y 0).val = (y 0).val; rw [e20]; omega
    | ⟨1, _⟩ => show win2_2.index t (1 : Fin 2) * 128 + 1 * (y 1).val = (y 1).val; rw [e21]; omega
  · funext y
    show V c main_arg4 (((cfg2.win 3).blk t).view.emb y) = V c main_arg4 y
    refine congrArg _ (funext fun a => Fin.ext ?_)
    match a with
    | ⟨0, _⟩ => show win2_3.index t (0 : Fin 1) * 128 + 1 * (y 0).val = (y 0).val; rw [e30]; omega

/-- An index of the array is in point t's block iff each coordinate is in the block's range on its axis. -/
theorem mem_blk (t : Fin cfg2.N) (i : S100000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v35).slice (win2_4.rect t)).set ↔ _
  rw [View.set_slice_whole, Rect.mem_set_unit]
  exact Iff.rfl

/-- Row r of the array lies in the block of point r / 2000. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 50 := N_2
  have ht : (i 0).val / 2000 < cfg2.N := by rw [hN]; omega
  obtain ⟨-, -, -, -, -, -, -, e40, e41⟩ := idx_facts ⟨(i 0).val / 2000, ht⟩
  refine ⟨⟨(i 0).val / 2000, ht⟩, flush2_4 _, ?_⟩
  rw [mem_blk]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win2_4.index ⟨(i 0).val / 2000, ht⟩ (1 : Fin 2) * 128 ≤ (i 1).val
      ∧ (i 1).val < win2_4.index ⟨(i 0).val / 2000, ht⟩ (1 : Fin 2) * 128 + 128
    rw [e41]; omega

/-- The array the launch leaves. -/
theorem final (c : Dev nD) :
    (dat2 V c).arrAt 4 cfg2.N = dense (V c main_v34) (V c main_v12) (V c main_arg3) (V c main_arg4) :=
  (dat2 V c).arrAt_eq_of_cover 4 _ (fun t _ => flushed V c t) cover

end Cert.KernelIdeal.Region2

end
-- ==== Proof.Chain.lean ====
import proofs.«148444_j20710332301824_1_alg».proof.Proof.Gen.KernelIdeal.Frame
import proofs.«148444_j20710332301824_1_alg».proof.Proof.Network
import proofs.«148444_j20710332301824_1_alg».proof.Proof.Region0
import proofs.«148444_j20710332301824_1_alg».proof.Proof.Region1
import proofs.«148444_j20710332301824_1_alg».proof.Proof.Region2
import Idealize.ShloMosaic.Lib.StableHlo.Run

/-!
  The kernel program's buffers, followed from the launch memory to the return: at each boundary between a
  stretch of host operations and a launch, what each buffer that is still to be read holds, as a function of
  the seven arguments.

  Before the first launch the two degree columns are computed; the first launch leaves the scaled features;
  the host gathers and sums them along the edges; the second launch leaves the first layer's scaled output;
  the host aggregates again; the third launch leaves the network's output. A buffer that a stretch does not
  write, or that a launch only reads, keeps its contents across it.
-/

set_option Elab.async false

noncomputable section

open Idealize.ShloMosaic Idealize.ShloMosaic.TcCoe Idealize.SL.Sem Idealize.ShloMosaic.StableHlo
open Idealize.ShloMosaic.Pipeline (Dat)

namespace Cert.KernelIdeal.Chain

open Cert.KernelIdeal Cert.KernelIdeal.Gen Cert.KernelIdeal.Net Cert.Stages

variable (m : (ℓ : Loc nD τ sig) → Buf (Elt Ideal) ℓ) (ρ : Dev nD → PrngReg) (c : Dev nD)

-- the degree counts, the gathers and the scatter-sums are compared as wholes: both sides apply them to equal operands
attribute [local irreducible] Host.scatterAdd Host.gather Host.rsqrt

/-- Read one buffer after a stretch of host operations: each operation's result at its own buffer is its
    function of its operands' contents, and any other buffer is as before. -/
local macro "host_read" : tactic =>
  `(tactic| (dsimp only [W5, W4, W3, W2, W1, W7, W9, hostOps0, hostOps0_1, hostOps0_2, hostOps0_3, hostOps0_4, hostOps1, hostOps2]
             after_results))

/-- `dense` of equal arrays. -/
theorem dense_congr {a a' : FVec Ideal S100000x128 .f32} {r r' : FVec Ideal S100000x1 .f32}
    {w w' : FVec Ideal S128x128 .f32} {b b' : FVec Ideal S128 .f32}
    (ha : a = a') (hr : r = r') (hw : w = w') (hb : b = b') : dense a r w b = dense a' r' w' b' := by
  subst ha hr hw hb; rfl

/-- `aggregate` of equal arrays. -/
theorem aggregate_congr {a a' : FVec Ideal S100000x128 .f32} {s s' d d' : (⟨S1600000, .i32⟩ : BufTy).Contents (Elt Ideal)}
    (ha : a = a') (hs : s = s') (hd : d = d') : aggregate a s d = aggregate a' s' d' := by
  subst ha hs hd; rfl

/-- The host operations between the first two launches aggregate the first launch's result along the edges,
    from any contents. -/
theorem between01 (V : Valuation τ sig (Elt Ideal)) :
    StableHlo.after hostOps1 V (Proc.devRef .tc main_v23)
      = aggregate (V (Proc.devRef .tc main_v13)) (V (Proc.devRef .tc main_arg5)) (V (Proc.devRef .tc main_arg6)) := by
  host_read
  rfl

/-- The host operations between the last two launches aggregate the second launch's result along the edges,
    from any contents. -/
theorem between12 (V : Valuation τ sig (Elt Ideal)) :
    StableHlo.after hostOps2 V (Proc.devRef .tc main_v34)
      = aggregate (V (Proc.devRef .tc main_v24)) (V (Proc.devRef .tc main_arg5)) (V (Proc.devRef .tc main_arg6)) := by
  host_read
  rfl

/-! ## Entering the first launch: the arguments as launched, the two degree columns computed -/

theorem at5_arg0 : W5 m ρ c (Proc.devRef .tc main_arg0) = (m ((c : Thread nD τ).loc main_arg0)) := by
  host_read <;> rfl
theorem at5_arg1 : W5 m ρ c (Proc.devRef .tc main_arg1) = (m ((c : Thread nD τ).loc main_arg1)) := by
  host_read <;> rfl
theorem at5_arg2 : W5 m ρ c (Proc.devRef .tc main_arg2) = (m ((c : Thread nD τ).loc main_arg2)) := by
  host_read <;> rfl
theorem at5_arg3 : W5 m ρ c (Proc.devRef .tc main_arg3) = (m ((c : Thread nD τ).loc main_arg3)) := by
  host_read <;> rfl
theorem at5_arg4 : W5 m ρ c (Proc.devRef .tc main_arg4) = (m ((c : Thread nD τ).loc main_arg4)) := by
  host_read <;> rfl
theorem at5_arg5 : W5 m ρ c (Proc.devRef .tc main_arg5) = (m ((c : Thread nD τ).loc main_arg5)) := by
  host_read <;> rfl
theorem at5_arg6 : W5 m ρ c (Proc.devRef .tc main_arg6) = (m ((c : Thread nD τ).loc main_arg6)) := by
  host_read <;> rfl

/-- The out-degree column. -/
theorem at5_v10 : W5 m ρ c (Proc.devRef .tc main_v10) = normCol (m ((c : Thread nD τ).loc main_arg5)) := by
  host_read
  unfold normCol degree
  refine congrArg (fun z : FVec Ideal S100000 .f32 => broadcastInDim S100000x1 ![0] bcast_S100000_S100000x1_0 z) ?_
  refine congrArg (fun z : FVec Ideal S100000 .f32 => Host.rsqrt z) ?_
  show (maximumf _ _ : FVec Ideal S100000 .f32) = _
  exact congrArg₂ maximumf rfl rfl
/-- The in-degree column. -/
theorem at5_v12 : W5 m ρ c (Proc.devRef .tc main_v12) = normCol (m ((c : Thread nD τ).loc main_arg6)) := by
  host_read
  unfold normCol degree
  refine congrArg (fun z : FVec Ideal S100000 .f32 => broadcastInDim S100000x1 ![0] bcast_S100000_S100000x1_0 z) ?_
  refine congrArg (fun z : FVec Ideal S100000 .f32 => Host.rsqrt z) ?_
  show (maximumf _ _ : FVec Ideal S100000 .f32) = _
  exact congrArg₂ maximumf rfl rfl

/-! ## Leaving the first launch: the features scaled by the out-degree column -/

theorem at6_v13 : W6 m ρ c (Proc.devRef .tc main_v13) = scaleRows (m ((c : Thread nD τ).loc main_arg0)) (normCol (m ((c : Thread nD τ).loc main_arg5))) :=
  (W6_arr m ρ c 2).trans ((Region0.final (V5 m ρ) c).trans (congrArg₂ scaleRows (at5_arg0 m ρ c) (at5_v10 m ρ c)))
theorem at6_v10 : W6 m ρ c (Proc.devRef .tc main_v10) = normCol (m ((c : Thread nD τ).loc main_arg5)) :=
  ((W6_arr m ρ c 1).trans (((dat0 (V5 m ρ) c).arrAt_in 1 rfl _).trans (A_eq0 (V5 m ρ) c 1))).trans (at5_v10 m ρ c)
theorem at6_v12 : W6 m ρ c (Proc.devRef .tc main_v12) = normCol (m ((c : Thread nD τ).loc main_arg6)) :=
  (W6_of_ne m ρ c main_v12 (by decide)).trans (at5_v12 m ρ c)
theorem at6_arg1 : W6 m ρ c (Proc.devRef .tc main_arg1) = (m ((c : Thread nD τ).loc main_arg1)) :=
  (W6_of_ne m ρ c main_arg1 (by decide)).trans (at5_arg1 m ρ c)
theorem at6_arg2 : W6 m ρ c (Proc.devRef .tc main_arg2) = (m ((c : Thread nD τ).loc main_arg2)) :=
  (W6_of_ne m ρ c main_arg2 (by decide)).trans (at5_arg2 m ρ c)
theorem at6_arg3 : W6 m ρ c (Proc.devRef .tc main_arg3) = (m ((c : Thread nD τ).loc main_arg3)) :=
  (W6_of_ne m ρ c main_arg3 (by decide)).trans (at5_arg3 m ρ c)
theorem at6_arg4 : W6 m ρ c (Proc.devRef .tc main_arg4) = (m ((c : Thread nD τ).loc main_arg4)) :=
  (W6_of_ne m ρ c main_arg4 (by decide)).trans (at5_arg4 m ρ c)
theorem at6_arg5 : W6 m ρ c (Proc.devRef .tc main_arg5) = (m ((c : Thread nD τ).loc main_arg5)) :=
  (W6_of_ne m ρ c main_arg5 (by decide)).trans (at5_arg5 m ρ c)
theorem at6_arg6 : W6 m ρ c (Proc.devRef .tc main_arg6) = (m ((c : Thread nD τ).loc main_arg6)) :=
  (W6_of_ne m ρ c main_arg6 (by decide)).trans (at5_arg6 m ρ c)

/-! ## Entering the second launch: the scaled features aggregated along the edges -/

theorem at7_v23 : W7 m ρ c (Proc.devRef .tc main_v23) = aggregate (scaleRows (m ((c : Thread nD τ).loc main_arg0)) (normCol (m ((c : Thread nD τ).loc main_arg5)))) (m ((c : Thread nD τ).loc main_arg5)) (m ((c : Thread nD τ).loc main_arg6)) :=
  (between01 (W6 m ρ c)).trans (aggregate_congr (at6_v13 m ρ c) (at6_arg5 m ρ c) (at6_arg6 m ρ c))
theorem at7_v10 : W7 m ρ c (Proc.devRef .tc main_v10) = normCol (m ((c : Thread nD τ).loc main_arg5)) := by
  host_read <;> exact at6_v10 m ρ c
theorem at7_v12 : W7 m ρ c (Proc.devRef .tc main_v12) = normCol (m ((c : Thread nD τ).loc main_arg6)) := by
  host_read <;> exact at6_v12 m ρ c
theorem at7_arg1 : W7 m ρ c (Proc.devRef .tc main_arg1) = (m ((c : Thread nD τ).loc main_arg1)) := by
  host_read <;> exact at6_arg1 m ρ c
theorem at7_arg2 : W7 m ρ c (Proc.devRef .tc main_arg2) = (m ((c : Thread nD τ).loc main_arg2)) := by
  host_read <;> exact at6_arg2 m ρ c
theorem at7_arg3 : W7 m ρ c (Proc.devRef .tc main_arg3) = (m ((c : Thread nD τ).loc main_arg3)) := by
  host_read <;> exact at6_arg3 m ρ c
theorem at7_arg4 : W7 m ρ c (Proc.devRef .tc main_arg4) = (m ((c : Thread nD τ).loc main_arg4)) := by
  host_read <;> exact at6_arg4 m ρ c
theorem at7_arg5 : W7 m ρ c (Proc.devRef .tc main_arg5) = (m ((c : Thread nD τ).loc main_arg5)) := by
  host_read <;> exact at6_arg5 m ρ c
theorem at7_arg6 : W7 m ρ c (Proc.devRef .tc main_arg6) = (m ((c : Thread nD τ).loc main_arg6)) := by
  host_read <;> exact at6_arg6 m ρ c

/-! ## Leaving the second launch: the first layer's output, scaled for the second layer -/

theorem at8_v24 : W8 m ρ c (Proc.devRef .tc main_v24) = hidden (m ((c : Thread nD τ).loc main_arg0)) (m ((c : Thread nD τ).loc main_arg1)) (m ((c : Thread nD τ).loc main_arg2)) (m ((c : Thread nD τ).loc main_arg5)) (m ((c : Thread nD τ).loc main_arg6)) :=
  (W8_arr m ρ c 5).trans ((Region1.final (V7 m ρ) c).trans
    (congrArg₂ scaleRows
      (dense_congr (at7_v23 m ρ c) (at7_v12 m ρ c) (at7_arg1 m ρ c) (at7_arg2 m ρ c))
      (at7_v10 m ρ c)))
theorem at8_v12 : W8 m ρ c (Proc.devRef .tc main_v12) = normCol (m ((c : Thread nD τ).loc main_arg6)) :=
  ((W8_arr m ρ c 1).trans (((dat1 (V7 m ρ) c).arrAt_in 1 rfl _).trans (A_eq1 (V7 m ρ) c 1))).trans (at7_v12 m ρ c)
theorem at8_arg3 : W8 m ρ c (Proc.devRef .tc main_arg3) = (m ((c : Thread nD τ).loc main_arg3)) :=
  (W8_of_ne m ρ c main_arg3 (by decide)).trans (at7_arg3 m ρ c)
theorem at8_arg4 : W8 m ρ c (Proc.devRef .tc main_arg4) = (m ((c : Thread nD τ).loc main_arg4)) :=
  (W8_of_ne m ρ c main_arg4 (by decide)).trans (at7_arg4 m ρ c)
theorem at8_arg5 : W8 m ρ c (Proc.devRef .tc main_arg5) = (m ((c : Thread nD τ).loc main_arg5)) :=
  (W8_of_ne m ρ c main_arg5 (by decide)).trans (at7_arg5 m ρ c)
theorem at8_arg6 : W8 m ρ c (Proc.devRef .tc main_arg6) = (m ((c : Thread nD τ).loc main_arg6)) :=
  (W8_of_ne m ρ c main_arg6 (by decide)).trans (at7_arg6 m ρ c)

/-! ## Entering the third launch: the first layer's output aggregated along the edges -/

theorem at9_v34 : W9 m ρ c (Proc.devRef .tc main_v34) = aggregate (hidden (m ((c : Thread nD τ).loc main_arg0)) (m ((c : Thread nD τ).loc main_arg1)) (m ((c : Thread nD τ).loc main_arg2)) (m ((c : Thread nD τ).loc main_arg5)) (m ((c : Thread nD τ).loc main_arg6))) (m ((c : Thread nD τ).loc main_arg5)) (m ((c : Thread nD τ).loc main_arg6)) :=
  (between12 (W8 m ρ c)).trans (aggregate_congr (at8_v24 m ρ c) (at8_arg5 m ρ c) (at8_arg6 m ρ c))
theorem at9_v12 : W9 m ρ c (Proc.devRef .tc main_v12) = normCol (m ((c : Thread nD τ).loc main_arg6)) := by
  host_read <;> exact at8_v12 m ρ c
theorem at9_arg3 : W9 m ρ c (Proc.devRef .tc main_arg3) = (m ((c : Thread nD τ).loc main_arg3)) := by
  host_read <;> exact at8_arg3 m ρ c
theorem at9_arg4 : W9 m ρ c (Proc.devRef .tc main_arg4) = (m ((c : Thread nD τ).loc main_arg4)) := by
  host_read <;> exact at8_arg4 m ρ c

/-! ## At the return: the result buffer holds the network of the arguments -/

theorem result : W10 m ρ c (Proc.devRef .tc main_v35)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 4).trans ((Region2.final (V9 m ρ) c).trans
    (dense_congr (at9_v34 m ρ c) (at9_v12 m ρ c) (at9_arg3 m ρ c) (at9_arg4 m ρ c)))

end Cert.KernelIdeal.Chain

end
-- ==== Proof.KernelRun.lean ====
import proofs.«148444_j20710332301824_1_alg».proof.Proof.Gen.KernelIdeal.Frame

/-!
  The kernel program's run with its result named: every weakly fair execution from a memory with zero
  counters terminates without a fault, the seven arguments end as launched, and the result buffer ends at
  the contents the chain of boundaries assigns it at the return (`W10`): the same launch over the same
  segments as the frame claim, with the result buffer read off the last thread state beside the arguments.
-/

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v35) = W10 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v35 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Run

end
-- ==== Proof.RefNetwork.lean ====
import proofs.«148444_j20710332301824_1_alg».proof.Proof.Gen.ReferenceIdeal.Read
import proofs.«148444_j20710332301824_1_alg».proof.Proof.Network
import Idealize.ShloMosaic.Lib.ValueIdx
import Idealize.ShloMosaic.PureOps.Ideal.Laws

/-!
  The reference program computes `network` of its arguments.

  Its degree columns, gathers and scatter-sums are the same operations `network` is written with (the
  reference computes each degree column twice, once per layer: the same term both times). What is read index
  by index is each layer's arithmetic between them: a row scaled by a broadcast column is `scaleRows`, and
  scale · matrix product · bias · clamp is `dense` — the host's matrix product at (p, q) being the sum over k of
  the left operand at (p, k) times the right at (k, q).
-/

noncomputable section

open Idealize.ShloMosaic Idealize.ShloMosaic.ValueIdx

namespace Cert.ReferenceIdeal.RefNet

open Cert.ReferenceIdeal Cert.ReferenceIdeal.Read Cert.KernelIdeal.Net Cert.Stages

variable (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 x6 : (⟨S1600000, .i32⟩ : BufTy).Contents (Elt Ideal))

/-! ## The degree columns and the aggregations are `network`'s own -/

theorem col_out : val_main_v10 (F := Ideal) x5 = normCol x5 := rfl
theorem col_in : val_main_v24 (F := Ideal) x6 = normCol x6 := rfl
theorem col_out' : val_main_v42 (F := Ideal) x5 = normCol x5 := rfl
theorem col_in' : val_main_v56 (F := Ideal) x6 = normCol x6 := rfl
theorem agg1 : val_main_v22 (F := Ideal) x0 x5 x6 = aggregate (val_main_v12 (F := Ideal) x0 x5) x5 x6 := rfl
theorem agg2 : val_main_v54 (F := Ideal) x0 x1 x2 x5 x6 = aggregate (val_main_v44 (F := Ideal) x0 x1 x2 x5 x6) x5 x6 := rfl

/-! ## The arithmetic between them, index by index -/

/-- The features scaled by the out-degree column. -/
theorem scaled : val_main_v12 (F := Ideal) x0 x5 = scaleRows x0 (val_main_v10 (F := Ideal) x5) := by
  funext i
  obtain ⟨p, q, rfl⟩ : ∃ (p : Fin 100000) (q : Fin 128), i = ix2 p q := ⟨i 0, i 1, eq_ix2 i⟩
  rw [val_main_v12_apply, val_main_v11_apply, scaleRows_apply]
  refine congrArg₂ (fun a b : EReal => a * b) rfl (congrArg _ ?_)
  exact funext fun a => Fin.ext (by match a with | ⟨0, _⟩ => rfl | ⟨1, _⟩ => rfl)

/-- One term of the first layer's matrix product. -/
theorem term1 (p : Fin 100000) (q k : Fin 128) :
    val_main_v26 (F := Ideal) x0 x5 x6 (lidx_main_v27 (ix2 p q) k) * x1 (ridx_main_v27 (ix2 p q) k)
      = (val_main_v22 (F := Ideal) x0 x5 x6 (ix2 p k) * val_main_v24 (F := Ideal) x6 (ix2 p (0 : Fin 1))) * x1 (ix2 k q) := by
  have hl : lidx_main_v27 (ix2 p q) k = ix2 p k :=
    funext fun a => Fin.ext (by match a with | ⟨0, _⟩ => rfl | ⟨1, _⟩ => rfl)
  have hr : ridx_main_v27 (ix2 p q) k = ix2 k q :=
    funext fun a => Fin.ext (by match a with | ⟨0, _⟩ => rfl | ⟨1, _⟩ => rfl)
  rw [hl, hr, val_main_v26_apply, val_main_v25_apply]
  refine congrArg₂ (fun a b : EReal => a * b) (congrArg₂ (fun a b : EReal => a * b) rfl (congrArg _ ?_)) rfl
  exact funext fun a => Fin.ext (by match a with | ⟨0, _⟩ => rfl | ⟨1, _⟩ => rfl)

/-- The first layer, scaled for the second. -/
theorem layer1 : val_main_v44 (F := Ideal) x0 x1 x2 x5 x6
    = scaleRows (dense (val_main_v22 (F := Ideal) x0 x5 x6) (val_main_v24 (F := Ideal) x6) x1 x2) (val_main_v42 (F := Ideal) x5) := by
  funext i
  obtain ⟨p, q, rfl⟩ : ∃ (p : Fin 100000) (q : Fin 128), i = ix2 p q := ⟨i 0, i 1, eq_ix2 i⟩
  rw [val_main_v44_apply, val_main_v43_apply, val_main_v31_apply, val_main_v30_apply, val_main_v27_apply,
    val_main_v29_apply, val_main_v28_apply, val_main_call2_v0_apply, val_main_call2_cst_apply, scaleRows_apply, dense_apply]
  refine congrArg₂ (fun a b : EReal => a * b)
    (congrArg₂ (fun a b : EReal => max a b)
      (congrArg₂ (fun a b : EReal => a + b) (Finset.sum_congr rfl fun k _ => term1 x0 x1 x5 x6 p q k) (congrArg _ ?_)) rfl)
    (congrArg _ ?_)
  · exact funext fun a => Fin.ext (by match a with | ⟨0, _⟩ => rfl)
  · exact funext fun a => Fin.ext (by match a with | ⟨0, _⟩ => rfl | ⟨1, _⟩ => rfl)

/-- One term of the second layer's matrix product. -/
theorem term2 (p : Fin 100000) (q k : Fin 128) :
    val_main_v58 (F := Ideal) x0 x1 x2 x5 x6 (lidx_main_v59 (ix2 p q) k) * x3 (ridx_main_v59 (ix2 p q) k)
      = (val_main_v54 (F := Ideal) x0 x1 x2 x5 x6 (ix2 p k) * val_main_v56 (F := Ideal) x6 (ix2 p (0 : Fin 1))) * x3 (ix2 k q) := by
  have hl : lidx_main_v59 (ix2 p q) k = ix2 p k :=
    funext fun a => Fin.ext (by match a with | ⟨0, _⟩ => rfl | ⟨1, _⟩ => rfl)
  have hr : ridx_main_v59 (ix2 p q) k = ix2 k q :=
    funext fun a => Fin.ext (by match a with | ⟨0, _⟩ => rfl | ⟨1, _⟩ => rfl)
  rw [hl, hr, val_main_v58_apply, val_main_v57_apply]
  refine congrArg₂ (fun a b : EReal => a * b) (congrArg₂ (fun a b : EReal => a * b) rfl (congrArg _ ?_)) rfl
  exact funext fun a => Fin.ext (by match a with | ⟨0, _⟩ => rfl | ⟨1, _⟩ => rfl)

/-- The second layer. -/
theorem layer2 : val_main_v63 (F := Ideal) x0 x1 x2 x3 x4 x5 x6
    = dense (val_main_v54 (F := Ideal) x0 x1 x2 x5 x6) (val_main_v56 (F := Ideal) x6) x3 x4 := by
  funext i
  obtain ⟨p, q, rfl⟩ : ∃ (p : Fin 100000) (q : Fin 128), i = ix2 p q := ⟨i 0, i 1, eq_ix2 i⟩
  rw [val_main_v63_apply, val_main_v62_apply, val_main_v59_apply,
    val_main_v61_apply, val_main_v60_apply, val_main_call5_v0_apply, val_main_call5_cst_apply, dense_apply]
  refine congrArg₂ (fun a b : EReal => max a b)
      (congrArg₂ (fun a b : EReal => a + b) (Finset.sum_congr rfl fun k _ => term2 x0 x1 x2 x3 x5 x6 p q k) (congrArg _ ?_)) rfl
  exact funext fun a => Fin.ext (by match a with | ⟨0, _⟩ => rfl)

/-! ## The whole reference -/

/-- The reference's result, as a function of its arguments, is `network` of them. -/
theorem result : val_main_v63 (F := Ideal) x0 x1 x2 x3 x4 x5 x6 = network x0 x1 x2 x3 x4 x5 x6 := by
  rw [layer2, agg2, layer1, agg1, scaled, col_out, col_in, col_out', col_in']
  rfl

end Cert.ReferenceIdeal.RefNet

end
-- ==== Proof.lean ====
/-
  Two layers of graph convolution over 100000 nodes and 1600000 edges — for each layer: scale the node rows by
  the reciprocal square root of the out-degree, gather them along the edges' sources and sum them at the
  edges' destinations, scale by the reciprocal square root of the in-degree, multiply by the layer's weights,
  add its bias, clamp at zero — computed once with three tiled launches (row scaling; scale · weights · bias ·
  clamp · scale; scale · weights · bias · clamp) around host gathers and scatter-sums, and once by the
  reference's host operations alone.

  On the extended reals the two are the same function of the arguments, operation for operation: a launch's
  2000-row blocks tile the rows, and at one index a block's matrix product into a zero accumulator is the
  same sum over the contracted axis as the host's product of the whole arrays; the change of float format in
  front of the product is the identity; the degree columns, the gathers and the scatter-sums are the same
  host operations on both sides and are never opened. No law of arithmetic beyond this reading is used, so the
  finiteness of the inputs is not needed.

  `Stages` states the two row-wise functions, `Network` the whole function; `BodyOps`, `DenseBody` read the
  launches' stored values at an index; `Region0`, `Region1`, `Region2` read each launch's result array over the
  grid; `Chain` follows the kernel program's buffers from launch to return; `KernelRun` is its run with the
  result named; `RefNetwork` reads the reference's term. Below: the five claims.
-/
import proofs.«148444_j20710332301824_1_alg».proof.Defs
import proofs.«148444_j20710332301824_1_alg».proof.Proof.Gen.Kernel
import proofs.«148444_j20710332301824_1_alg».proof.Proof.Gen.Kernel.Skeleton
import proofs.«148444_j20710332301824_1_alg».proof.Proof.Gen.Kernel.Launch
import proofs.«148444_j20710332301824_1_alg».proof.Proof.Gen.Kernel.Points
import proofs.«148444_j20710332301824_1_alg».proof.Proof.Gen.Kernel.Frame
import proofs.«148444_j20710332301824_1_alg».proof.Proof.Gen.KernelIdeal
import proofs.«148444_j20710332301824_1_alg».proof.Proof.Gen.KernelIdeal.Skeleton
import proofs.«148444_j20710332301824_1_alg».proof.Proof.Gen.KernelIdeal.Launch
import proofs.«148444_j20710332301824_1_alg».proof.Proof.Gen.KernelIdeal.Points
import proofs.«148444_j20710332301824_1_alg».proof.Proof.Gen.KernelIdeal.Frame
import proofs.«148444_j20710332301824_1_alg».proof.Proof.Gen.ReferenceIdeal
import proofs.«148444_j20710332301824_1_alg».proof.Proof.Gen.Pre_finite_inputs
import proofs.«148444_j20710332301824_1_alg».proof.Proof.Gen.ReferenceIdeal.Run
import proofs.«148444_j20710332301824_1_alg».proof.Proof.Gen.ReferenceIdeal.Read
import proofs.«148444_j20710332301824_1_alg».proof.Proof.Chain
import proofs.«148444_j20710332301824_1_alg».proof.Proof.KernelRun
import proofs.«148444_j20710332301824_1_alg».proof.Proof.RefNetwork
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `network` of the arguments in their result buffer: the kernel program by the chain of
    its boundaries, the reference by reading its term; the arguments agree. -/
theorem algebraic : Cert.algebraic_KernelIdeal_ReferenceIdeal := by
  intro m ρ m' ρ' _ hagree
  refine ⟨fun c => Cert.KernelIdeal.Gen.W10 m ρ c (Proc.devRef .tc Cert.KernelIdeal.main_v35),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2.1, (hagree c).2.2.1, (hagree c).2.2.2.1,
    (hagree c).2.2.2.2.1, (hagree c).2.2.2.2.2.1, (hagree c).2.2.2.2.2.2, Cert.ReferenceIdeal.RefNet.result]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
